-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x165 : Shape := ⟨3, ![32, 16, 165]⟩
abbrev S87808x165 : Shape := ⟨2, ![87808, 165]⟩
abbrev S87808 : Shape := ⟨1, ![87808]⟩
abbrev S_ : Shape := ⟨0, ![]⟩

class Facts : Prop where
  bcast_S_S32x16x165 : S_.BroadcastsInDim S32x16x165 (![] : Fin 0 → Fin S32x16x165.rank)
  reducesTo_S32x16x165_S_d0_1_2 : S32x16x165.ReducesTo [0, 1, 2] S_
  h_S_ : 0 < S_.numel
  bcast_S_S87808x165 : S_.BroadcastsInDim S87808x165 (![] : Fin 0 → Fin S87808x165.rank)
  reducesTo_S87808x165_S_d0_1 : S87808x165.ReducesTo [0, 1] S_
  bcast_S_S87808 : S_.BroadcastsInDim S87808 (![] : Fin 0 → Fin S87808.rank)
  reducesTo_S87808_S_d0 : S87808.ReducesTo [0] S_

variable [Facts]

def fn {F : FTy → Type} [FloatOps F] (main_arg0 : FVec F S32x16x165 .f32) (main_arg1 : FVec F S87808x165 .f32) (main_arg2 : FVec F S87808 .f32) : IVec S_ 1 :=
  let main_v0 : FVec F S32x16x165 .f32 := Host.absf main_arg0
  let main_cst : FVec F S_ .f32 := constant S_ .f32 0x7F800000#32
  let main_v1 : FVec F S32x16x165 .f32 := broadcastInDim S32x16x165 ![] bcast_S_S32x16x165 main_cst
  let main_v2 : IVec S32x16x165 1 := cmpf .olt main_v0 main_v1
  let main_c : IVec S_ 1 := constantI S_ 1 1#1
  let main_v3 : IVec S_ 1 := (fun x v => Host.reduce IntOp.andi x v reducesTo_S32x16x165_S_d0_1_2 h_S_) main_v2 main_c
  let main_v4 : FVec F S87808x165 .f32 := Host.absf main_arg1
  let main_cst_0 : FVec F S_ .f32 := constant S_ .f32 0x7F800000#32
  let main_v5 : FVec F S87808x165 .f32 := broadcastInDim S87808x165 ![] bcast_S_S87808x165 main_cst_0
  let main_v6 : IVec S87808x165 1 := cmpf .olt main_v4 main_v5
  let main_c_1 : IVec S_ 1 := constantI S_ 1 1#1
  let main_v7 : IVec S_ 1 := (fun x v => Host.reduce IntOp.andi x v reducesTo_S87808x165_S_d0_1 h_S_) main_v6 main_c_1
  let main_v8 : IVec S_ 1 := andi main_v3 main_v7
  let main_v9 : FVec F S87808 .f32 := Host.absf main_arg2
  let main_cst_2 : FVec F S_ .f32 := constant S_ .f32 0x7F800000#32
  let main_v10 : FVec F S87808 .f32 := broadcastInDim S87808 ![] bcast_S_S87808 main_cst_2
  let main_v11 : IVec S87808 1 := cmpf .olt main_v9 main_v10
  let main_c_3 : IVec S_ 1 := constantI S_ 1 1#1
  let main_v12 : IVec S_ 1 := (fun x v => Host.reduce IntOp.andi x v reducesTo_S87808_S_d0 h_S_) main_v11 main_c_3
  let main_v13 : IVec S_ 1 := andi main_v8 main_v12
  main_v13
-- ==== Kernel.lean ====
abbrev S32x16x165 : Shape := ⟨3, ![32, 16, 165]⟩
abbrev S87808x165 : Shape := ⟨2, ![87808, 165]⟩
abbrev S87808 : Shape := ⟨1, ![87808]⟩
abbrev S512x165 : Shape := ⟨2, ![512, 165]⟩
abbrev S1x87808 : Shape := ⟨2, ![1, 87808]⟩
abbrev S256x165 : Shape := ⟨2, ![256, 165]⟩
abbrev S6272x165 : Shape := ⟨2, ![6272, 165]⟩
abbrev S1x6272 : Shape := ⟨2, ![1, 6272]⟩
abbrev S256x6272 : Shape := ⟨2, ![256, 6272]⟩

abbrev nBuf : Space → Nat
  | .hbm => 8
  | .vmem => 8
  | .smem => 0
  | _ => 0

abbrev bufTy : (tb : Table) → Fin (tcTables nBuf tb) → BufTy
  | .hbm, ⟨0, _⟩ => ⟨S32x16x165, .f32⟩
  | .hbm, ⟨1, _⟩ => ⟨S87808x165, .f32⟩
  | .hbm, ⟨2, _⟩ => ⟨S87808, .f32⟩
  | .hbm, ⟨3, _⟩ => ⟨S512x165, .f32⟩
  | .hbm, ⟨4, _⟩ => ⟨S512x165, .bf16⟩
  | .hbm, ⟨5, _⟩ => ⟨S1x87808, .f32⟩
  | .hbm, ⟨6, _⟩ => ⟨S512x165, .f32⟩
  | .hbm, ⟨7, _⟩ => ⟨S32x16x165, .f32⟩
  | .local _ .vmem, ⟨0, _⟩ => ⟨S256x165, .bf16⟩
  | .local _ .vmem, ⟨1, _⟩ => ⟨S6272x165, .f32⟩
  | .local _ .vmem, ⟨2, _⟩ => ⟨S6272x165, .f32⟩
  | .local _ .vmem, ⟨3, _⟩ => ⟨S1x6272, .f32⟩
  | .local _ .vmem, ⟨4, _⟩ => ⟨S1x6272, .f32⟩
  | .local _ .vmem, ⟨5, _⟩ => ⟨S256x165, .f32⟩
  | .local _ .vmem, ⟨6, _⟩ => ⟨S256x165, .f32⟩
  | .local _ .vmem, ⟨7, _⟩ => ⟨S256x165, .f32⟩
  | _, _ => ⟨S32x16x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 14], ![false, false]⟩

def k0_cond2 (i : grid0.Coords) : BitVec 1 :=
  let arg1 : BitVec 32 := BitVec.ofNat 32 (i 1).val
  let c13_i32 : BitVec 32 := 13#32
  let v21 : BitVec 1 := Scalar.cmpi .eq arg1 c13_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x165 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S6272x165 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x6272 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x165 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S32x16x165_S512x165 : S32x16x165.ShapeCasts S512x165
  bitsLt_bf16_f32 : FTy.bits .bf16 < FTy.bits .f32
  shapeCasts_S87808_S1x87808 : S87808.ShapeCasts S1x87808
  inb_S256x165_S256x165_0_0 : ∀ a, (![0, 0] : Fin 2 → Nat) a + S256x165.size a ≤ S256x165.size a
  h_S256x165 : 0 < S256x165.numel
  shapeCasts_S256x165_S256x165 : S256x165.ShapeCasts S256x165
  inb_S6272x165_S6272x165_0_0 : ∀ a, (![0, 0] : Fin 2 → Nat) a + S6272x165.size a ≤ S6272x165.size a
  h_S6272x165 : 0 < S6272x165.numel
  inb_S1x6272_S1x6272_0_0 : ∀ a, (![0, 0] : Fin 2 → Nat) a + S1x6272.size a ≤ S1x6272.size a
  h_S1x6272 : 0 < S1x6272.numel
  shapeCasts_S1x6272_S1x6272 : S1x6272.ShapeCasts S1x6272
  broadcasts_S1x6272_S256x6272 : S1x6272.Broadcasts S256x6272
  shapeCasts_S512x165_S32x16x165 : S512x165.ShapeCasts S32x16x165
  dot_S256x165_S6272x165_S256x6272_1_1_0_0_n_n_wf : DotDims.WF S256x165 S6272x165 S256x6272 [1] [1] [0] [0] [] []
  dot_S256x6272_S6272x165_S256x165_1_0_0_1_n_n_wf : DotDims.WF S256x6272 S6272x165 S256x165 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x165.size a ≤ S512x165.size a
  hwx0_0 : ∀ i : grid0.Coords, EltTy.bits .bf16 = 32 ∨ (Rect.block (s := S512x165) S256x165.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6272x165.size a ≤ S87808x165.size a
  hwx0_1 : ∀ i : grid0.Coords, EltTy.bits .f32 = 32 ∨ (Rect.block (s := S87808x165) S6272x165.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x6272.size a ≤ S1x87808.size a
  hwx0_2 : ∀ i : grid0.Coords, EltTy.bits .f32 = 32 ∨ (Rect.block (s := S1x87808) S1x6272.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x165.size a ≤ S512x165.size a
  hwx0_3 : ∀ i : grid0.Coords, EltTy.bits .f32 = 32 ∨ (Rect.block (s := S512x165) S256x165.size (cc0_transform_3 i) (hinb0_3 i)).WholeWords (EltTy.packing .f32)

variable [Facts₀]

def dot_S256x165_S6272x165_S256x6272_1_1_0_0_n_n : DotDims S256x165 S6272x165 S256x6272 where
  lhsContracting := [1]
  rhsContracting := [1]
  lhsNonContracting := [0]
  rhsNonContracting := [0]
  lhsBatch := []
  rhsBatch := []
  wf := dot_S256x165_S6272x165_S256x6272_1_1_0_0_n_n_wf
def dot_S256x6272_S6272x165_S256x165_1_0_0_1_n_n : DotDims S256x6272 S6272x165 S256x165 where
  lhsContracting := [1]
  rhsContracting := [0]
  lhsNonContracting := [0]
  rhsNonContracting := [1]
  lhsBatch := []
  rhsBatch := []
  wf := dot_S256x6272_S6272x165_S256x165_1_0_0_1_n_n_wf

abbrev win0_0 : Pipeline.Window sig grid0 :=
  Pipeline.Window.ofSpec (Memref.whole main_v1) S256x165.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6272x165.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x6272.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x165.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x16x165 : Shape := ⟨3, ![32, 16, 165]⟩
abbrev S87808x165 : Shape := ⟨2, ![87808, 165]⟩
abbrev S87808 : Shape := ⟨1, ![87808]⟩
abbrev S32x16x87808 : Shape := ⟨3, ![32, 16, 87808]⟩
abbrev S_ : Shape := ⟨0, ![]⟩
abbrev S1x1x87808 : Shape := ⟨3, ![1, 1, 87808]⟩

abbrev nBuf : Space → Nat
  | .hbm => 11
  | .vmem => 0
  | .smem => 0
  | _ => 0

abbrev bufTy : (tb : Table) → Fin (tcTables nBuf tb) → BufTy
  | .hbm, ⟨0, _⟩ => ⟨S32x16x165, .f32⟩
  | .hbm, ⟨1, _⟩ => ⟨S87808x165, .f32⟩
  | .hbm, ⟨2, _⟩ => ⟨S87808, .f32⟩
  | .hbm, ⟨3, _⟩ => ⟨S32x16x87808, .f32⟩
  | .hbm, ⟨4, _⟩ => ⟨S_, .f32⟩
  | .hbm, ⟨5, _⟩ => ⟨S32x16x87808, .f32⟩
  | .hbm, ⟨6, _⟩ => ⟨S32x16x87808, .f32⟩
  | .hbm, ⟨7, _⟩ => ⟨S1x1x87808, .f32⟩
  | .hbm, ⟨8, _⟩ => ⟨S32x16x87808, .f32⟩
  | .hbm, ⟨9, _⟩ => ⟨S32x16x87808, .f32⟩
  | .hbm, ⟨10, _⟩ => ⟨S32x16x165, .f32⟩
  | _, _ => ⟨S32x16x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S32x16x87808 : S_.BroadcastsInDim S32x16x87808 (![] : Fin 0 → Fin S32x16x87808.rank)
  bcast_S87808_S1x1x87808_2 : S87808.BroadcastsInDim S1x1x87808 (![2] : Fin 1 → Fin S1x1x87808.rank)
  bcast_S1x1x87808_S32x16x87808_0_1_2 : S1x1x87808.BroadcastsInDim S32x16x87808 (![0, 1, 2] : Fin 3 → Fin S32x16x87808.rank)
  dot_S32x16x165_S87808x165_S32x16x87808_2_1_01_0_n_n_wf : DotDims.WF S32x16x165 S87808x165 S32x16x87808 [2] [1] [0, 1] [0] [] []
  dot_S32x16x87808_S87808x165_S32x16x165_2_0_01_1_n_n_wf : DotDims.WF S32x16x87808 S87808x165 S32x16x165 [2] [0] [0, 1] [1] [] []

variable [Facts₀]

def dot_S32x16x165_S87808x165_S32x16x87808_2_1_01_0_n_n : DotDims S32x16x165 S87808x165 S32x16x87808 where
  lhsContracting := [2]
  rhsContracting := [1]
  lhsNonContracting := [0, 1]
  rhsNonContracting := [0]
  lhsBatch := []
  rhsBatch := []
  wf := dot_S32x16x165_S87808x165_S32x16x87808_2_1_01_0_n_n_wf
def dot_S32x16x87808_S87808x165_S32x16x165_2_0_01_1_n_n : DotDims S32x16x87808 S87808x165 S32x16x165 where
  lhsContracting := [2]
  rhsContracting := [0]
  lhsNonContracting := [0, 1]
  rhsNonContracting := [1]
  lhsBatch := []
  rhsBatch := []
  wf := dot_S32x16x87808_S87808x165_S32x16x165_2_0_01_1_n_n_wf

class Facts : Prop extends Facts₀ where

variable [Facts]
-- ==== Proof.LibRowDots.lean ====
/-
  Products of rows against rows, read at an index, on the extended reals.

  A contraction whose two operands are both contracted on their LAST axis — [M,K] against [N,K] (a `tpu.matmul`
  into the zero accumulator, or the host's `dot_general`), [B,M,K] against a shared [N,K], and the batched
  [B,M,K] against [B,N,K] — is, at the output index (p, f) or (g, p, f), the sum over d of the left row's entry d
  times the right row's entry d. Each statement holds for any dimension record equal to the literal one.
-/
import Idealize.ShloMosaic.PureOps.Ideal.Laws
import Idealize.ShloMosaic.Lib.ValueIdx

noncomputable section

namespace Cert.LibRowDots

open Idealize.ShloMosaic Idealize.ShloMosaic.ValueIdx

/-! ## [M,K] against [N,K] -/

section Rows

variable {M K N : Nat}
variable (wf : DotDims.WF ⟨2, ![M, K]⟩ ⟨2, ![N, K]⟩ ⟨2, ![M, N]⟩ [1] [1] [0] [0] [] [])

/-- The literal record: both operands contracted on axis 1, no batch axis. -/
abbrev rows : DotDims ⟨2, ![M, K]⟩ ⟨2, ![N, K]⟩ ⟨2, ![M, N]⟩ := ⟨[1], [1], [0], [0], [], [], wf⟩

theorem rows_lhs0 (i : (⟨2, ![M, N]⟩ : Shape).Idx) (q : (rows wf).contr.Idx) : ((rows wf).lhsIdx i q 0).val = (i 0).val := by
  unfold DotDims.lhsIdx
  rw [dif_neg (show ¬(0 : Fin 2) ∈ (rows wf).lhsBatch from (by decide : ¬(0 : Fin 2) ∈ ([] : List (Fin 2)))), dif_pos (show (0 : Fin 2) ∈ (rows wf).lhsNonContracting from (by decide : (0 : Fin 2) ∈ ([0] : List (Fin 2))))]
  rfl

theorem rows_lhs1 (i : (⟨2, ![M, N]⟩ : Shape).Idx) (q : (rows wf).contr.Idx) : ((rows wf).lhsIdx i q 1).val = (q ⟨0, Nat.one_pos⟩).val :=
  (rows wf).lhsIdx_val_of_single rfl i q

theorem rows_rhs0 (i : (⟨2, ![M, N]⟩ : Shape).Idx) (q : (rows wf).contr.Idx) : ((rows wf).rhsIdx i q 0).val = (i 1).val := by
  unfold DotDims.rhsIdx
  rw [dif_neg (show ¬(0 : Fin 2) ∈ (rows wf).rhsBatch from (by decide : ¬(0 : Fin 2) ∈ ([] : List (Fin 2)))), dif_pos (show (0 : Fin 2) ∈ (rows wf).rhsNonContracting from (by decide : (0 : Fin 2) ∈ ([0] : List (Fin 2))))]
  rfl

theorem rows_rhs1 (i : (⟨2, ![M, N]⟩ : Shape).Idx) (q : (rows wf).contr.Idx) : ((rows wf).rhsIdx i q 1).val = (q ⟨0, Nat.one_pos⟩).val :=
  (rows wf).rhsIdx_val_of_single rfl i q

/-- The sum over the contraction index is the sum over d of row p of the left times row f of the right. -/
theorem rows_sum {φ₁ φ₂ : FTy} (a : FVec Ideal ⟨2, ![M, K]⟩ φ₁) (w : FVec Ideal ⟨2, ![N, K]⟩ φ₂) (p : Fin M) (f : Fin N) :
    ∑ k : (rows wf).contr.Idx, a ((rows wf).lhsIdx (ix2 p f) k) * w ((rows wf).rhsIdx (ix2 p f) k)
      = ∑ d : Fin K, a (ix2 p d) * w (ix2 f d) := by
  rw [← Equiv.sum_comp (contrEquiv1 (rows wf) K rfl rfl).symm]
  refine Finset.sum_congr rfl fun k _ => ?_
  have hk := contrEquiv1_symm_val (rows wf) K rfl rfl k
  have el : (rows wf).lhsIdx (ix2 p f) ((contrEquiv1 (rows wf) K rfl rfl).symm k) = ix2 p k := funext fun x => Fin.ext (by
    match x with
    | ⟨0, _⟩ => exact rows_lhs0 wf _ _
    | ⟨1, _⟩ => exact (rows_lhs1 wf _ _).trans hk)
  have er : (rows wf).rhsIdx (ix2 p f) ((contrEquiv1 (rows wf) K rfl rfl).symm k) = ix2 f k := funext fun x => Fin.ext (by
    match x with
    | ⟨0, _⟩ => exact rows_rhs0 wf _ _
    | ⟨1, _⟩ => exact (rows_rhs1 wf _ _).trans hk)
  rw [el, er]

/-- A `tpu.matmul` of rows against rows into the zero accumulator, at (p, f). -/
theorem matmul_rows {φ₁ φ₂ : FTy} (D : DotDims ⟨2, ![M, K]⟩ ⟨2, ![N, K]⟩ ⟨2, ![M, N]⟩) (hD : D = rows wf)
    (prec : Option ContractPrecision) (a : FVec Ideal ⟨2, ![M, K]⟩ φ₁) (w : FVec Ideal ⟨2, ![N, K]⟩ φ₂) (p : Fin M) (f : Fin N) :
    matmul D prec a w (constant (F := Ideal) ⟨2, ![M, N]⟩ .f32 0x00000000#32) (ix2 p f) = ∑ d : Fin K, a (ix2 p d) * w (ix2 f d) := by
  subst hD
  exact (Ideal.matmul_constant_zero_apply _ prec a w (ix2 p f)).trans (rows_sum wf a w p f)

end Rows

/-! ## [B,M,K] against a shared [N,K] -/

section Shared

variable {B M K N : Nat}
variable (wf : DotDims.WF ⟨3, ![B, M, K]⟩ ⟨2, ![N, K]⟩ ⟨3, ![B, M, N]⟩ [2] [1] [0, 1] [0] [] [])

/-- The literal record: the left contracted on axis 2, the right on axis 1, no batch axis. -/
abbrev shared : DotDims ⟨3, ![B, M, K]⟩ ⟨2, ![N, K]⟩ ⟨3, ![B, M, N]⟩ := ⟨[2], [1], [0, 1], [0], [], [], wf⟩

theorem shared_lhs0 (i : (⟨3, ![B, M, N]⟩ : Shape).Idx) (q : (shared wf).contr.Idx) : ((shared wf).lhsIdx i q 0).val = (i 0).val := by
  unfold DotDims.lhsIdx
  rw [dif_neg (show ¬(0 : Fin 3) ∈ (shared wf).lhsBatch from (by decide : ¬(0 : Fin 3) ∈ ([] : List (Fin 3)))), dif_pos (show (0 : Fin 3) ∈ (shared wf).lhsNonContracting from (by decide : (0 : Fin 3) ∈ ([0, 1] : List (Fin 3))))]
  rfl

theorem shared_lhs1 (i : (⟨3, ![B, M, N]⟩ : Shape).Idx) (q : (shared wf).contr.Idx) : ((shared wf).lhsIdx i q 1).val = (i 1).val := by
  unfold DotDims.lhsIdx
  rw [dif_neg (show ¬(1 : Fin 3) ∈ (shared wf).lhsBatch from (by decide : ¬(1 : Fin 3) ∈ ([] : List (Fin 3)))), dif_pos (show (1 : Fin 3) ∈ (shared wf).lhsNonContracting from (by decide : (1 : Fin 3) ∈ ([0, 1] : List (Fin 3))))]
  rfl

theorem shared_lhs2 (i : (⟨3, ![B, M, N]⟩ : Shape).Idx) (q : (shared wf).contr.Idx) : ((shared wf).lhsIdx i q 2).val = (q ⟨0, Nat.one_pos⟩).val :=
  (shared wf).lhsIdx_val_of_single rfl i q

theorem shared_rhs0 (i : (⟨3, ![B, M, N]⟩ : Shape).Idx) (q : (shared wf).contr.Idx) : ((shared wf).rhsIdx i q 0).val = (i 2).val := by
  unfold DotDims.rhsIdx
  rw [dif_neg (show ¬(0 : Fin 2) ∈ (shared wf).rhsBatch from (by decide : ¬(0 : Fin 2) ∈ ([] : List (Fin 2)))), dif_pos (show (0 : Fin 2) ∈ (shared wf).rhsNonContracting from (by decide : (0 : Fin 2) ∈ ([0] : List (Fin 2))))]
  rfl

theorem shared_rhs1 (i : (⟨3, ![B, M, N]⟩ : Shape).Idx) (q : (shared wf).contr.Idx) : ((shared wf).rhsIdx i q 1).val = (q ⟨0, Nat.one_pos⟩).val :=
  (shared wf).rhsIdx_val_of_single rfl i q

/-- The host's `dot_general` of every chunk's rows against one shared table's rows, at (g, p, f). -/
theorem dot_shared {φ₁ φ₂ : FTy} (D : DotDims ⟨3, ![B, M, K]⟩ ⟨2, ![N, K]⟩ ⟨3, ![B, M, N]⟩) (hD : D = shared wf)
    (prec : Option ContractPrecision) (a : FVec Ideal ⟨3, ![B, M, K]⟩ φ₁) (w : FVec Ideal ⟨2, ![N, K]⟩ φ₂) (g : Fin B) (p : Fin M) (f : Fin N) :
    Host.dotGeneral D prec a w (ix3 g p f) = ∑ d : Fin K, a (ix3 g p d) * w (ix2 f d) := by
  subst hD
  refine (Ideal.dotGeneral_apply _ prec .single a w (ix3 g p f)).trans ?_
  rw [← Equiv.sum_comp (contrEquiv1 (shared wf) K rfl rfl).symm]
  refine Finset.sum_congr rfl fun k _ => ?_
  have hk := contrEquiv1_symm_val (shared wf) K rfl rfl k
  have el : (shared wf).lhsIdx (ix3 g p f) ((contrEquiv1 (shared wf) K rfl rfl).symm k) = ix3 g p k := funext fun x => Fin.ext (by
    match x with
    | ⟨0, _⟩ => exact shared_lhs0 wf _ _
    | ⟨1, _⟩ => exact shared_lhs1 wf _ _
    | ⟨2, _⟩ => exact (shared_lhs2 wf _ _).trans hk)
  have er : (shared wf).rhsIdx (ix3 g p f) ((contrEquiv1 (shared wf) K rfl rfl).symm k) = ix2 f k := funext fun x => Fin.ext (by
    match x with
    | ⟨0, _⟩ => exact shared_rhs0 wf _ _
    | ⟨1, _⟩ => exact (shared_rhs1 wf _ _).trans hk)
  rw [el, er]

end Shared

/-! ## [B,M,K] against [B,N,K], chunk by chunk -/

section Batched

variable {B M K N : Nat}
variable (wf : DotDims.WF ⟨3, ![B, M, K]⟩ ⟨3, ![B, N, K]⟩ ⟨3, ![B, M, N]⟩ [2] [2] [1] [1] [0] [0])

/-- The literal record: axis 0 the batch axis of both, both contracted on axis 2. -/
abbrev batched : DotDims ⟨3, ![B, M, K]⟩ ⟨3, ![B, N, K]⟩ ⟨3, ![B, M, N]⟩ := ⟨[2], [2], [1], [1], [0], [0], wf⟩

theorem batched_lhs0 (i : (⟨3, ![B, M, N]⟩ : Shape).Idx) (q : (batched wf).contr.Idx) : ((batched wf).lhsIdx i q 0).val = (i 0).val := by
  unfold DotDims.lhsIdx
  rw [dif_pos (show (0 : Fin 3) ∈ (batched wf).lhsBatch from (by decide : (0 : Fin 3) ∈ ([0] : List (Fin 3))))]
  rfl

theorem batched_lhs1 (i : (⟨3, ![B, M, N]⟩ : Shape).Idx) (q : (batched wf).contr.Idx) : ((batched wf).lhsIdx i q 1).val = (i 1).val := by
  unfold DotDims.lhsIdx
  rw [dif_neg (show ¬(1 : Fin 3) ∈ (batched wf).lhsBatch from (by decide : ¬(1 : Fin 3) ∈ ([0] : List (Fin 3)))), dif_pos (show (1 : Fin 3) ∈ (batched wf).lhsNonContracting from (by decide : (1 : Fin 3) ∈ ([1] : List (Fin 3))))]
  rfl

theorem batched_lhs2 (i : (⟨3, ![B, M, N]⟩ : Shape).Idx) (q : (batched wf).contr.Idx) : ((batched wf).lhsIdx i q 2).val = (q ⟨0, Nat.one_pos⟩).val :=
  (batched wf).lhsIdx_val_of_single rfl i q

theorem batched_rhs0 (i : (⟨3, ![B, M, N]⟩ : Shape).Idx) (q : (batched wf).contr.Idx) : ((batched wf).rhsIdx i q 0).val = (i 0).val := by
  unfold DotDims.rhsIdx
  rw [dif_pos (show (0 : Fin 3) ∈ (batched wf).rhsBatch from (by decide : (0 : Fin 3) ∈ ([0] : List (Fin 3))))]
  rfl

theorem batched_rhs1 (i : (⟨3, ![B, M, N]⟩ : Shape).Idx) (q : (batched wf).contr.Idx) : ((batched wf).rhsIdx i q 1).val = (i 2).val := by
  unfold DotDims.rhsIdx
  rw [dif_neg (show ¬(1 : Fin 3) ∈ (batched wf).rhsBatch from (by decide : ¬(1 : Fin 3) ∈ ([0] : List (Fin 3)))), dif_pos (show (1 : Fin 3) ∈ (batched wf).rhsNonContracting from (by decide : (1 : Fin 3) ∈ ([1] : List (Fin 3))))]
  rfl

theorem batched_rhs2 (i : (⟨3, ![B, M, N]⟩ : Shape).Idx) (q : (batched wf).contr.Idx) : ((batched wf).rhsIdx i q 2).val = (q ⟨0, Nat.one_pos⟩).val :=
  (batched wf).rhsIdx_val_of_single rfl i q

/-- The host's batched `dot_general`: chunk g's rows against chunk g's table's rows, at (g, p, f). -/
theorem dot_batched {φ₁ φ₂ : FTy} (D : DotDims ⟨3, ![B, M, K]⟩ ⟨3, ![B, N, K]⟩ ⟨3, ![B, M, N]⟩) (hD : D = batched wf)
    (prec : Option ContractPrecision) (a : FVec Ideal ⟨3, ![B, M, K]⟩ φ₁) (w : FVec Ideal ⟨3, ![B, N, K]⟩ φ₂) (g : Fin B) (p : Fin M) (f : Fin N) :
    Host.dotGeneral D prec a w (ix3 g p f) = ∑ d : Fin K, a (ix3 g p d) * w (ix3 g f d) := by
  subst hD
  refine (Ideal.dotGeneral_apply _ prec .single a w (ix3 g p f)).trans ?_
  rw [← Equiv.sum_comp (contrEquiv1 (batched wf) K rfl rfl).symm]
  refine Finset.sum_congr rfl fun k _ => ?_
  have hk := contrEquiv1_symm_val (batched wf) K rfl rfl k
  have el : (batched wf).lhsIdx (ix3 g p f) ((contrEquiv1 (batched wf) K rfl rfl).symm k) = ix3 g p k := funext fun x => Fin.ext (by
    match x with
    | ⟨0, _⟩ => exact batched_lhs0 wf _ _
    | ⟨1, _⟩ => exact batched_lhs1 wf _ _
    | ⟨2, _⟩ => exact (batched_lhs2 wf _ _).trans hk)
  have er : (batched wf).rhsIdx (ix3 g p f) ((contrEquiv1 (batched wf) K rfl rfl).symm k) = ix3 g f k := funext fun x => Fin.ext (by
    match x with
    | ⟨0, _⟩ => exact batched_rhs0 wf _ _
    | ⟨1, _⟩ => exact batched_rhs1 wf _ _
    | ⟨2, _⟩ => exact (batched_rhs2 wf _ _).trans hk)
  rw [el, er]

end Batched

end Cert.LibRowDots

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibBlockedSum.lean ====
/-
  A sum over a long axis, taken block by block.

  A sum over the first a·b naturals can be taken in a consecutive blocks of b terms: the term at position k sits in
  block k / b at place k % b, that is at b·s + d with s the block and d the place. Only commutativity and
  associativity of the addition are used, so the statement holds in any commutative monoid — in particular on the
  extended reals, where no finiteness is needed.
-/
import Mathlib.Algebra.BigOperators.Fin
import Mathlib.Logic.Equiv.Fin.Basic

open scoped BigOperators

namespace Cert.LibBlockedSum

/-- The sum over s < a of the sums over d < b of f (b·s + d) is the sum of f over the first a·b naturals. -/
theorem sum_range_blocks {β : Type*} [AddCommMonoid β] (a b : ℕ) (f : ℕ → β) :
    ∑ s ∈ Finset.range a, ∑ d : Fin b, f (b * s + d.val) = ∑ k : Fin (a * b), f k.val := by
  rw [← Equiv.sum_comp finProdFinEquiv (fun k : Fin (a * b) => f k.val), Fintype.sum_prod_type, Finset.sum_range]
  refine Finset.sum_congr rfl fun s _ => Finset.sum_congr rfl fun d _ => ?_
  refine congrArg f ?_
  show b * s.val + d.val = d.val + b * s.val
  exact Nat.add_comm _ _

end Cert.LibBlockedSum
-- ==== Proof.GridQuadrature.lean ====
/-
  The function both programs compute, and the law that lets its sum over the sampling grid be taken tile by tile.

  A row `a` of 165 coefficients is evaluated at each of the 87808 samples of the grid: sample `g` is the inner product
  of `a` with row `g` of the basis `D`. The negative part of the sample is cut off, the sample is weighted by `q g`, and
  the weighted samples are projected back onto the basis: coefficient `e` of the result is the sum over `g` of
  `max (∑ d, a d · D g d) 0 · q g · D g e`. The coefficient rows are held either as an array [32, 16, 165] or as the
  matrix [512, 165] of the same rows, and the weights either as a vector [87808] or as one line [1, 87808].

  The grid is a whole number of tiles: 87808 = 14 · 6272. Summing the contributions tile by tile, fourteen sums of 6272
  terms each, gives the sum over the whole grid. Only the commutativity and associativity of the addition are used, so
  this holds on the extended reals with no finiteness assumption.
-/
import Idealize.ShloMosaic.PureOps.Ideal.Laws
import Idealize.ShloMosaic.Lib.ValueIdx
import proofs.«162092_j17678085390535_2_alg».proof.Proof.LibBlockedSum

noncomputable section

namespace Cert.GridQuadrature

open Idealize.ShloMosaic Idealize.ShloMosaic.ValueIdx
open scoped BigOperators

/-- The contribution of one sample to coefficient `e`: `a` the coefficient row, `w` the basis row of the sample, `q` its
    weight. The cut-off is the maximum with the zero word of the format, left unevaluated. -/
def sample (a w : Fin 165 → EReal) (q : EReal) (e : Fin 165) : EReal :=
  max (∑ d : Fin 165, a d * w d) (Ideal.ofBits .f32 0x00000000#32) * q * w e

/-- A contribution depends only on the entries of the two rows and on the weight. -/
theorem sample_congr {a a' w w' : Fin 165 → EReal} {q q' : EReal} (ha : ∀ d, a d = a' d) (hw : ∀ d, w d = w' d) (hq : q = q')
    (e : Fin 165) : sample a w q e = sample a' w' q' e := by
  obtain rfl : a = a' := funext ha
  obtain rfl : w = w' := funext hw
  subst hq
  rfl

/-- The coefficient rows as an array [32, 16, 165], the basis [87808, 165], the weights [87808]. -/
def act (x : (⟨3, ![32, 16, 165]⟩ : Shape).Idx → EReal) (D : (⟨2, ![87808, 165]⟩ : Shape).Idx → EReal)
    (q : (⟨1, ![87808]⟩ : Shape).Idx → EReal) : (⟨3, ![32, 16, 165]⟩ : Shape).Idx → EReal :=
  fun i => ∑ g : Fin 87808, sample (fun d => x (ix3 (i 0) (i 1) d)) (fun d => D (ix2 g d)) (q (ix1 g)) (i 2)

/-- The same with the rows as a matrix [512, 165] and the weights as one line [1, 87808]. -/
def actRows (y : (⟨2, ![512, 165]⟩ : Shape).Idx → EReal) (D : (⟨2, ![87808, 165]⟩ : Shape).Idx → EReal)
    (q : (⟨2, ![1, 87808]⟩ : Shape).Idx → EReal) : (⟨2, ![512, 165]⟩ : Shape).Idx → EReal :=
  fun j => ∑ g : Fin 87808, sample (fun d => y (ix2 (j 0) d)) (fun d => D (ix2 g d)) (q (ix2 0 g)) (j 1)

/-- The matrix form read at row r, coefficient e. -/
theorem actRows_apply (y : (⟨2, ![512, 165]⟩ : Shape).Idx → EReal) (D : (⟨2, ![87808, 165]⟩ : Shape).Idx → EReal)
    (q : (⟨2, ![1, 87808]⟩ : Shape).Idx → EReal) (r : Fin 512) (e : Fin 165) :
    actRows y D q (ix2 r e) = ∑ g : Fin 87808, sample (fun d => y (ix2 r d)) (fun d => D (ix2 g d)) (q (ix2 0 g)) e := rfl

/-- The contribution of the sample at position `n` of the grid, for a position given as a natural number (zero past the
    end of the grid, which no tile reaches). -/
def sampleAt (a : Fin 165 → EReal) (D : (⟨2, ![87808, 165]⟩ : Shape).Idx → EReal) (q : Fin 87808 → EReal) (e : Fin 165)
    (n : ℕ) : EReal :=
  if h : n < 87808 then sample a (fun d => D (ix2 ⟨n, h⟩ d)) (q ⟨n, h⟩) e else 0

theorem sampleAt_of_lt (a : Fin 165 → EReal) (D : (⟨2, ![87808, 165]⟩ : Shape).Idx → EReal) (q : Fin 87808 → EReal)
    (e : Fin 165) (n : ℕ) (h : n < 87808) :
    sampleAt a D q e n = sample a (fun d => D (ix2 ⟨n, h⟩ d)) (q ⟨n, h⟩) e := dif_pos h

/-- Tile `s`: the 6272 samples at positions 6272·s, …, 6272·s + 6271. -/
def tile (a : Fin 165 → EReal) (D : (⟨2, ![87808, 165]⟩ : Shape).Idx → EReal) (q : Fin 87808 → EReal) (e : Fin 165)
    (s : ℕ) : EReal :=
  ∑ g : Fin 6272, sampleAt a D q e (6272 * s + g.val)

/-- The fourteen tiles together are the whole grid. -/
theorem tiles_sum (a : Fin 165 → EReal) (D : (⟨2, ![87808, 165]⟩ : Shape).Idx → EReal) (q : Fin 87808 → EReal)
    (e : Fin 165) :
    ∑ s ∈ Finset.range 14, tile a D q e s = ∑ g : Fin 87808, sample a (fun d => D (ix2 g d)) (q g) e := by
  unfold tile
  rw [Cert.LibBlockedSum.sum_range_blocks 14 6272 (sampleAt a D q e)]
  show ∑ k : Fin 87808, sampleAt a D q e k.val = _
  refine Finset.sum_congr rfl fun g _ => ?_
  exact sampleAt_of_lt a D q e g.val g.isLt

end Cert.GridQuadrature

end
-- ==== Proof.TileStep.lean ====
/-
  One tile's arithmetic, read at an index.

  At a grid point the kernel holds 256 coefficient rows, the 6272 basis rows of one tile and the tile's 6272 weights. It
  evaluates every row at every sample of the tile (rows against rows, contracted over the coefficient axis), cuts the
  samples off at zero, weights them, and contracts the weighted samples with the tile's basis rows over the sample axis;
  the result is added to what the accumulator holds. At (p, e) that is the accumulator's entry plus the sum over the
  tile's samples of the sample's contribution to coefficient `e` of row `p`. Changes of float format are the identity on
  the extended reals. The block the first point of a pass stores into the accumulator is zero everywhere.
-/
import proofs.«162092_j17678085390535_2_alg».proof.Proof.Gen.KernelIdeal.Skeleton
import proofs.«162092_j17678085390535_2_alg».proof.Proof.LibRowDots
import proofs.«162092_j17678085390535_2_alg».proof.Proof.LibInnerProducts
import proofs.«162092_j17678085390535_2_alg».proof.Proof.GridQuadrature
import Idealize.ShloMosaic.Lib.Pipeline.Value
import Idealize.ShloMosaic.Lib.ValueIdx
import Idealize.ShloMosaic.PureOps.Ideal.Laws

noncomputable section

namespace Cert.KernelIdeal.TileValue

open Cert.KernelIdeal Cert.KernelIdeal.Gen Idealize.ShloMosaic Idealize.ShloMosaic.ValueIdx Cert.GridQuadrature
open scoped BigOperators

/-- The block stored at the first point of a pass is zero at every index. -/
theorem zero_block_apply (j : S256x165.Idx) : k0_pay1 (F := Ideal) j = 0 := by
  unfold k0_pay1
  rw [shapeCast_self]
  exact Ideal.ofBits_zero_f32

/-- The weights' line [1, 6272] spread over the 256 rows reads, at (p, g), the weight of sample g. -/
theorem weights_apply (x2 : FVec Ideal S1x6272 .f32) (p : Fin 256) (g : Fin 6272) :
    broadcastTo S256x6272 x2 broadcasts_S1x6272_S256x6272 (ix2 p g) = x2 (ix2 0 g) :=
  broadcastTo_apply x2 broadcasts_S1x6272_S256x6272 (ix2 p g) (ix2 0 g) (fun a => by
    match a with
    | ⟨0, _⟩ => rfl
    | ⟨1, _⟩ => rfl)

/-- The weighted, cut-off samples of the tile, at (p, g). -/
theorem samples_apply (x0 : FVec Ideal S256x165 .bf16) (x1 : FVec Ideal S6272x165 .f32) (x2 : FVec Ideal S1x6272 .f32)
    (p : Fin 256) (g : Fin 6272) :
    mulf (maximumf (matmul dot_S256x165_S6272x165_S256x6272_1_1_0_0_n_n none x0 (truncf .bf16 x1 bitsLt_bf16_f32)
        (constant (F := Ideal) S256x6272 .f32 0x00000000#32))
      (broadcast S256x6272 (Scalar.ofBits (F := Ideal) .f32 0x00000000#32)))
      (broadcastTo S256x6272 x2 broadcasts_S1x6272_S256x6272) (ix2 p g)
    = max (∑ d : Fin 165, x0 (ix2 p d) * x1 (ix2 g d)) (Ideal.ofBits .f32 0x00000000#32) * x2 (ix2 0 g) := by
  rw [mulf_apply, maximumf_apply, weights_apply, broadcast_apply]
  exact congrArg (fun z => max z (Ideal.ofBits .f32 0x00000000#32) * x2 (ix2 0 g))
    (Cert.LibRowDots.matmul_rows dot_S256x165_S6272x165_S256x6272_1_1_0_0_n_n_wf
      dot_S256x165_S6272x165_S256x6272_1_1_0_0_n_n rfl none x0 (truncf .bf16 x1 bitsLt_bf16_f32) p g)

/-- One tile's step at (p, e): the accumulator's entry plus the tile's contributions to coefficient e of row p. -/
theorem tile_step_apply (x0 : Vec Ideal S256x165 .bf16) (x1 : Vec Ideal S6272x165 .f32) (x2 : Vec Ideal S1x6272 .f32)
    (acc : Vec Ideal S256x165 .f32) (p : Fin 256) (e : Fin 165) :
    k0_pay2 x0 x1 x2 acc (ix2 p e)
      = acc (ix2 p e) + ∑ g : Fin 6272, sample (fun d => x0 (ix2 p d)) (fun d => x1 (ix2 g d)) (x2 (ix2 0 g)) e := by
  unfold k0_pay2
  simp only [shapeCast_self]
  rw [addf_apply]
  refine congrArg (acc (ix2 p e) + ·) ?_
  refine (Idealize.ShloMosaic.InnerProducts.matmul_zero_apply dot_S256x6272_S6272x165_S256x165_1_0_0_1_n_n rfl none _ _ p e).trans ?_
  refine Finset.sum_congr rfl fun g _ => ?_
  exact congrArg (· * x1 (ix2 g e)) (samples_apply x0 x1 x2 p g)

end Cert.KernelIdeal.TileValue

end
-- ==== Proof.CaseContents.lean ====
/-
  What each control case of the body leaves behind.

  The body has three cases over a pass of fourteen points. At the first point of a pass it stores the zero block into the
  accumulator, reads it back and stores one tile's step over it. At the points in between it stores one tile's step over
  what the accumulator held. At the last point it does the same and then copies the accumulator into the output block.
  In every case the accumulator is left holding one tile's step — over the zero block at the first point, over its
  previous contents otherwise — and at the last point the output block holds the same. The step is the body's one
  arithmetic payload; every load and store goes through the whole buffer, so reading back what was stored gives the
  payload itself.
-/
import proofs.«162092_j17678085390535_2_alg».proof.Proof.Gen.KernelIdeal.Frame
import Idealize.ShloMosaic.Lib.Pipeline.Value
import Idealize.ShloMosaic.Lib.Tactic

noncomputable section

namespace Cert.KernelIdeal.TileValue

open Cert.KernelIdeal Cert.KernelIdeal.Gen Idealize.ShloMosaic Idealize.ShloMosaic.TcCoe Idealize.SL.Sem

variable {F : FTy → Type} [FloatOps F]

/-- Every access of the body starts at the origin of its buffer. -/
theorem origin : (![0, 0] : Fin 2 → Nat) = fun _ => 0 := funext fun a => by fin_cases a <;> rfl

/-- First point of a pass: the accumulator is left at one tile's step over the zero block. -/
theorem acc_first (c : Dev nD) (i : grid0.Coords) (arg2 : Memref sig .tc .vmem S256x165 .bf16) (harg2 : arg2.IsWhole) (arg3 : Memref sig .tc .vmem S6272x165 .f32) (harg3 : arg3.IsWhole) (arg4 : Memref sig .tc .vmem S1x6272 .f32) (harg4 : arg4.IsWhole) (arg5 : Memref sig .tc .vmem S256x165 .f32) (harg5 : arg5.IsWhole) (arg6 : Memref sig .tc .vmem S256x165 .f32) (harg6 : arg6.IsWhole) (hc0 : cond0_0 i) (hc1 : ¬cond0_1 i)
    (x0 : Vec F S256x165 .bf16) (x1 : Vec F S6272x165 .f32) (x2 : Vec F S1x6272 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S256x165) origin, View.readCov_unit_zero (S := S256x165) _ origin]
  simp only [View.readAt_eq_ld, harg2.read_unread, harg3.read_unread, harg4.read_unread,
    View.ld_unit_zero (S := S256x165) origin, View.ld_unit_zero (S := S6272x165) origin, View.ld_unit_zero (S := S1x6272) origin]

/-- A point inside a pass: the accumulator is left at one tile's step over what it held. -/
theorem acc_inner (c : Dev nD) (i : grid0.Coords) (arg2 : Memref sig .tc .vmem S256x165 .bf16) (harg2 : arg2.IsWhole) (arg3 : Memref sig .tc .vmem S6272x165 .f32) (harg3 : arg3.IsWhole) (arg4 : Memref sig .tc .vmem S1x6272 .f32) (harg4 : arg4.IsWhole) (arg5 : Memref sig .tc .vmem S256x165 .f32) (harg5 : arg5.IsWhole) (arg6 : Memref sig .tc .vmem S256x165 .f32) (harg6 : arg6.IsWhole) (hc0 : ¬cond0_0 i) (hc1 : ¬cond0_1 i)
    (x0 : Vec F S256x165 .bf16) (x1 : Vec F S6272x165 .f32) (x2 : Vec F S1x6272 .f32) (xs0 : Vec F S256x165 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S256x165) origin]
  simp only [View.readAt_eq_ld, harg2.read_unread, harg3.read_unread, harg4.read_unread, harg6.read_unread,
    View.ld_unit_zero (S := S256x165) origin, View.ld_unit_zero (S := S6272x165) origin, View.ld_unit_zero (S := S1x6272) origin]

/-- Last point of a pass: the accumulator is left at one tile's step over what it held, -/
theorem acc_last (c : Dev nD) (i : grid0.Coords) (arg2 : Memref sig .tc .vmem S256x165 .bf16) (harg2 : arg2.IsWhole) (arg3 : Memref sig .tc .vmem S6272x165 .f32) (harg3 : arg3.IsWhole) (arg4 : Memref sig .tc .vmem S1x6272 .f32) (harg4 : arg4.IsWhole) (arg5 : Memref sig .tc .vmem S256x165 .f32) (harg5 : arg5.IsWhole) (arg6 : Memref sig .tc .vmem S256x165 .f32) (harg6 : arg6.IsWhole) (hc0 : ¬cond0_0 i) (hc1 : cond0_1 i)
    (x0 : Vec F S256x165 .bf16) (x1 : Vec F S6272x165 .f32) (x2 : Vec F S1x6272 .f32) (xs0 : Vec F S256x165 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S256x165) origin]
  simp only [View.readAt_eq_ld, harg2.read_unread, harg3.read_unread, harg4.read_unread, harg6.read_unread,
    View.ld_unit_zero (S := S256x165) origin, View.ld_unit_zero (S := S6272x165) origin, View.ld_unit_zero (S := S1x6272) origin]

/-- and the output block holds the same. -/
theorem out_last (c : Dev nD) (i : grid0.Coords) (arg2 : Memref sig .tc .vmem S256x165 .bf16) (harg2 : arg2.IsWhole) (arg3 : Memref sig .tc .vmem S6272x165 .f32) (harg3 : arg3.IsWhole) (arg4 : Memref sig .tc .vmem S1x6272 .f32) (harg4 : arg4.IsWhole) (arg5 : Memref sig .tc .vmem S256x165 .f32) (harg5 : arg5.IsWhole) (arg6 : Memref sig .tc .vmem S256x165 .f32) (harg6 : arg6.IsWhole) (hc0 : ¬cond0_0 i) (hc1 : cond0_1 i)
    (x0 : Vec F S256x165 .bf16) (x1 : Vec F S6272x165 .f32) (x2 : Vec F S1x6272 .f32) (xs0 : Vec F S256x165 .f32) :
    out0_C_3 c i arg2 harg2 arg3 harg3 arg4 harg4 arg5 harg5 arg6 harg6 hc0 hc1 x0 x1 x2 xs0 = k0_pay2 x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S256x165) origin, View.readCov_unit_zero (S := S256x165) _ origin]
  simp only [View.readAt_eq_ld, harg2.read_unread, harg3.read_unread, harg4.read_unread, harg6.read_unread,
    View.ld_unit_zero (S := S256x165) origin, View.ld_unit_zero (S := S6272x165) origin, View.ld_unit_zero (S := S1x6272) origin]

end Cert.KernelIdeal.TileValue

end
-- ==== Proof.WindowBlocks.lean ====
/-
  The blocks a grid point works on.

  The 28 grid points are two passes of fourteen: point t is pass t / 14, tile t % 14. Pass i works on the 256
  coefficient rows 256·i, …, 256·i + 255 and writes the same rows of the result; tile k brings the 6272 basis rows
  6272·k, …, 6272·k + 6271 and the weights at the same positions of the weights' line. A block's entry at an index is
  the array's entry at (block number) · (block extent) + (the index inside the block), axis by axis.
-/
import proofs.«162092_j17678085390535_2_alg».proof.Proof.Gen.KernelIdeal.Frame
import Idealize.ShloMosaic.Lib.ValueIdx

noncomputable section

namespace Cert.KernelIdeal.TileValue

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block numbers of the four windows at point t, decided over the grid. -/
theorem block_numbers : ∀ t : Fin cfg0.N,
    win0_0.index t (0 : Fin 2) = t.val / 14 ∧ win0_0.index t (1 : Fin 2) = 0
    ∧ win0_1.index t (0 : Fin 2) = t.val % 14 ∧ win0_1.index t (1 : Fin 2) = 0
    ∧ win0_2.index t (0 : Fin 2) = 0 ∧ win0_2.index t (1 : Fin 2) = t.val % 14
    ∧ win0_3.index t (0 : Fin 2) = t.val / 14 ∧ win0_3.index t (1 : Fin 2) = 0 :=
  (by decide +kernel : ∀ t : Fin grid0.N, _)

/-- The coefficient rows' block: row p of the block is row 256·(t / 14) + p of the matrix of rows. -/
theorem rows_block_apply (c : Dev nD) (t : Fin cfg0.N) (p : Fin 256) (d : Fin 165) (r : Fin 512)
    (hr : r.val = 256 * (t.val / 14) + p.val) :
    (iblk m c 0 t : Vec F S256x165 .bf16) (ix2 p d) = V m c main_v1 (ix2 r d) := by
  obtain ⟨e0, e1, -⟩ := block_numbers t
  unfold iblk
  rw [View.read_apply]
  show V m c main_v1 (((cfg0.win 0).blk t).view.emb (ix2 p d)) = V m c main_v1 (ix2 r d)
  refine congrArg (V m c main_v1) (funext fun a => Fin.ext ?_)
  match a with
  | ⟨0, _⟩ => show win0_0.index t (0 : Fin 2) * 256 + 1 * p.val = r.val; omega
  | ⟨1, _⟩ => show win0_0.index t (1 : Fin 2) * 165 + 1 * d.val = d.val; omega

/-- The basis' block: row g of the block is row 6272·(t % 14) + g of the basis. -/
theorem basis_block_apply (c : Dev nD) (t : Fin cfg0.N) (g : Fin 6272) (d : Fin 165) (n : Fin 87808)
    (hn : n.val = 6272 * (t.val % 14) + g.val) :
    (iblk m c 1 t : Vec F S6272x165 .f32) (ix2 g d) = V m c main_arg1 (ix2 n d) := by
  obtain ⟨-, -, e0, e1, -⟩ := block_numbers t
  unfold iblk
  rw [View.read_apply]
  show V m c main_arg1 (((cfg0.win 1).blk t).view.emb (ix2 g d)) = V m c main_arg1 (ix2 n d)
  refine congrArg (V m c main_arg1) (funext fun a => Fin.ext ?_)
  match a with
  | ⟨0, _⟩ => show win0_1.index t (0 : Fin 2) * 6272 + 1 * g.val = n.val; omega
  | ⟨1, _⟩ => show win0_1.index t (1 : Fin 2) * 165 + 1 * d.val = d.val; omega

/-- The weights' block: entry g of the block is entry 6272·(t % 14) + g of the weights' line. -/
theorem weights_block_apply (c : Dev nD) (t : Fin cfg0.N) (g : Fin 6272) (n : Fin 87808)
    (hn : n.val = 6272 * (t.val % 14) + g.val) :
    (iblk m c 2 t : Vec F S1x6272 .f32) (ix2 0 g) = V m c main_v2 (ix2 0 n) := by
  obtain ⟨-, -, -, -, e0, e1, -⟩ := block_numbers t
  unfold iblk
  rw [View.read_apply]
  show V m c main_v2 (((cfg0.win 2).blk t).view.emb (ix2 0 g)) = V m c main_v2 (ix2 0 n)
  refine congrArg (V m c main_v2) (funext fun a => Fin.ext ?_)
  match a with
  | ⟨0, _⟩ => show win0_2.index t (0 : Fin 2) * 1 + 1 * 0 = 0; omega
  | ⟨1, _⟩ => show win0_2.index t (1 : Fin 2) * 6272 + 1 * g.val = n.val; omega

/-- The result's block: index (p, e) of the block is index (256·(t / 14) + p, e) of the result matrix. -/
theorem result_block_emb (t : Fin cfg0.N) (p : Fin 256) (e : Fin 165) (r : Fin 512)
    (hr : r.val = 256 * (t.val / 14) + p.val) :
    ((cfg0.win 3).blk t).view.emb (ix2 p e) = ix2 r e := by
  obtain ⟨-, -, -, -, -, -, e0, e1⟩ := block_numbers t
  refine funext fun a => Fin.ext ?_
  match a with
  | ⟨0, _⟩ => show win0_3.index t (0 : Fin 2) * 256 + 1 * p.val = r.val; omega
  | ⟨1, _⟩ => show win0_3.index t (1 : Fin 2) * 165 + 1 * e.val = e.val; omega

end Cert.KernelIdeal.TileValue

end
-- ==== Proof.PassAccumulation.lean ====
/-
  What the accumulator holds after each point of a pass.

  Over a pass the accumulator starts from the zero block and receives one tile's step per point. The step at point t,
  read at (p, e), is tile t % 14 of the grid sum for the coefficient row the pass works on at p. So after the point at
  place k of its pass the accumulator's entry is the sum of tiles 0, …, k: at the first point 0 + tile 0, and each later
  point adds its tile to what the point before left. At the last point of a pass the output block holds what the
  accumulator holds. The proof is an induction over the points; nothing is enumerated.
-/
import proofs.«162092_j17678085390535_2_alg».proof.Proof.TileStep
import proofs.«162092_j17678085390535_2_alg».proof.Proof.CaseContents
import proofs.«162092_j17678085390535_2_alg».proof.Proof.WindowBlocks
import proofs.«162092_j17678085390535_2_alg».proof.Proof.GridQuadrature

noncomputable section

namespace Cert.KernelIdeal.TileValue

open Cert.KernelIdeal Cert.KernelIdeal.Gen Idealize.ShloMosaic Idealize.ShloMosaic.TcCoe Idealize.SL.Sem
open Idealize.ShloMosaic.ValueIdx Cert.GridQuadrature
open scoped BigOperators

variable (m : (ℓ : Loc nD τ sig) → Buf (Elt Ideal) ℓ)

/-- Tile s of the grid sum for row r of the matrix of coefficient rows, coefficient e, over the arrays as the kernel's
    region finds them. -/
abbrev rowTile (c : Dev nD) (r : Fin 512) (e : Fin 165) (s : ℕ) : EReal :=
  tile (fun d => V m c main_v1 (ix2 r d)) (V m c main_arg1) (fun g => V m c main_v2 (ix2 0 g)) e s

/-- The contributions a point adds at (p, e) are tile t % 14 for the row its pass holds at p. -/
theorem step_is_tile (c : Dev nD) (t : Fin cfg0.N) (p : Fin 256) (e : Fin 165) (r : Fin 512)
    (hr : r.val = 256 * (t.val / 14) + p.val) :
    ∑ g : Fin 6272, sample (fun d => (iblk m c 0 t : Vec Ideal S256x165 .bf16) (ix2 p d))
        (fun d => (iblk m c 1 t : Vec Ideal S6272x165 .f32) (ix2 g d)) ((iblk m c 2 t : Vec Ideal S1x6272 .f32) (ix2 0 g)) e
      = rowTile m c r e (t.val % 14) := by
  have hN : t.val < 28 := lt_of_lt_of_eq t.isLt (show cfg0.N = 28 from N_0)
  show _ = ∑ g : Fin 6272, sampleAt _ _ _ e (6272 * (t.val % 14) + g.val)
  refine Finset.sum_congr rfl fun g _ => ?_
  have hlt : 6272 * (t.val % 14) + g.val < 87808 := by have := g.isLt; omega
  refine Eq.trans ?_ (sampleAt_of_lt _ _ _ e _ hlt).symm
  exact sample_congr (fun d => rows_block_apply m c t p d r hr) (fun d => basis_block_apply m c t g d ⟨_, hlt⟩ rfl)
    (weights_block_apply m c t g ⟨_, hlt⟩ rfl) e

/-- After point n the accumulator's entry (p, e) is the sum of tiles 0, …, n % 14 for the row its pass holds at p. -/
theorem acc_after (c : Dev nD) : ∀ (n : ℕ) (hn : n < cfg0.N) (p : Fin 256) (e : Fin 165) (r : Fin 512),
    r.val = 256 * (n / 14) + p.val →
    (outsAt0 m c n hn).2 (ix2 p e) = ∑ s ∈ Finset.range (n % 14 + 1), rowTile m c r e s := by
  intro n
  induction n using Nat.strong_induction_on with
  | _ n ih =>
    intro hn p e r hr
    have hN : n < 28 := lt_of_lt_of_eq hn (show cfg0.N = 28 from N_0)
    have hs := step_is_tile m c ⟨n, hn⟩ p e r hr
    by_cases h0 : n % 14 = 0
    · have h1 : ¬n % 14 = 13 := by omega
      rw [outsAt0_A m c ⟨n, hn⟩ h0 h1]
      dsimp only
      refine (congrFun (acc_first c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (fun h => h1 ((hcond0_1 ⟨n, hn⟩).mp h))
        (iblk m c 0 ⟨n, hn⟩) (iblk m c 1 ⟨n, hn⟩) (iblk m c 2 ⟨n, hn⟩)) (ix2 p e)).trans ?_
      refine (tile_step_apply (iblk m c 0 ⟨n, hn⟩) (iblk m c 1 ⟨n, hn⟩) (iblk m c 2 ⟨n, hn⟩) _ p e).trans ?_
      refine (congrArg₂ (· + ·) (zero_block_apply (ix2 p e)) hs).trans ?_
      show 0 + rowTile m c r e (n % 14) = _
      rw [h0, zero_add, Finset.sum_range_one]
    · have hprev : n - 1 < n := by omega
      have hr' : r.val = 256 * ((n - 1) / 14) + p.val := by omega
      have hacc := ih (n - 1) hprev (Nat.lt_of_le_of_lt (Nat.sub_le _ _) hn) p e r hr'
      have hfin : (∑ s ∈ Finset.range ((n - 1) % 14 + 1), rowTile m c r e s) + rowTile m c r e (n % 14)
          = ∑ s ∈ Finset.range (n % 14 + 1), rowTile m c r e s := by
        rw [show (n - 1) % 14 + 1 = n % 14 by omega, Finset.sum_range_succ]
      by_cases h1 : n % 14 = 13
      · rw [outsAt0_C m c ⟨n, hn⟩ h0 h1]
        dsimp only
        refine (congrFun (acc_last c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) ((hcond0_1 ⟨n, hn⟩).mpr h1)
          (iblk m c 0 ⟨n, hn⟩) (iblk m c 1 ⟨n, hn⟩) (iblk m c 2 ⟨n, hn⟩) (outsAt0 m c (n - 1) (Nat.lt_of_le_of_lt (Nat.sub_le _ _) hn)).2) (ix2 p e)).trans ?_
        refine (tile_step_apply (iblk m c 0 ⟨n, hn⟩) (iblk m c 1 ⟨n, hn⟩) (iblk m c 2 ⟨n, hn⟩) _ p e).trans ?_
        exact (congrArg₂ (· + ·) hacc hs).trans hfin
      · rw [outsAt0_B m c ⟨n, hn⟩ h0 h1]
        dsimp only
        refine (congrFun (acc_inner c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) (fun h => h1 ((hcond0_1 ⟨n, hn⟩).mp h))
          (iblk m c 0 ⟨n, hn⟩) (iblk m c 1 ⟨n, hn⟩) (iblk m c 2 ⟨n, hn⟩) (outsAt0 m c (n - 1) (Nat.lt_of_le_of_lt (Nat.sub_le _ _) hn)).2) (ix2 p e)).trans ?_
        refine (tile_step_apply (iblk m c 0 ⟨n, hn⟩) (iblk m c 1 ⟨n, hn⟩) (iblk m c 2 ⟨n, hn⟩) _ p e).trans ?_
        exact (congrArg₂ (· + ·) hacc hs).trans hfin

/-- At the last point of a pass the output block holds what the accumulator holds. -/
theorem out_at_last (c : Dev nD) (n : ℕ) (hn : n < cfg0.N) (h1 : n % 14 = 13) :
    (outsAt0 m c n hn).1 = (outsAt0 m c n hn).2 := by
  have h0 : ¬n % 14 = 0 := by omega
  rw [outsAt0_C m c ⟨n, hn⟩ h0 h1]
  dsimp only
  exact (out_last c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) ((hcond0_1 ⟨n, hn⟩).mpr h1)
      (iblk m c 0 ⟨n, hn⟩) (iblk m c 1 ⟨n, hn⟩) (iblk m c 2 ⟨n, hn⟩) (outsAt0 m c (n - 1) (Nat.lt_of_le_of_lt (Nat.sub_le _ _) hn)).2).trans
    (acc_last c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) ((hcond0_1 ⟨n, hn⟩).mpr h1)
      (iblk m c 0 ⟨n, hn⟩) (iblk m c 1 ⟨n, hn⟩) (iblk m c 2 ⟨n, hn⟩) (outsAt0 m c (n - 1) (Nat.lt_of_le_of_lt (Nat.sub_le _ _) hn)).2).symm

end Cert.KernelIdeal.TileValue

end
-- ==== Proof.LibRowPairs.lean ====
/-
  Rows indexed by a pair, read at an index.

  A batch of `a · b` rows of length `c` is held either as a matrix `[n, c]` with `n = a · b`, row `p · b + q` being
  the row of the pair `(p, q)`, or as an array `[a, b, c]`; one value per pair is held either as `[a, b]` or as one line
  `[1, 1, n]`. A shape cast keeps the row-major position of every element, so reading one form at its index reads the
  other form at the index of the same pair. That `n = a · b` is part of the cast's hypothesis; the statements only need
  the row's number written as `p · b + q`.
-/
import Idealize.ShloMosaic.Lib.Pipeline.Value
import Idealize.ShloMosaic.Lib.ValueIdx

namespace Idealize.ShloMosaic.RowPairs

open Idealize.ShloMosaic Idealize.ShloMosaic.ValueIdx

variable {α : Type}

/-- An `[a, b, c]` array cast to the matrix `[n, c]` reads, at row `p · b + q` and column `k`, the array at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The matrix `[n, c]` cast to `[a, b, c]` reads, at `(p, q, k)`, the matrix at row `p · b + q` and column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- An `[a, b]` array of one value per pair, cast to the line `[1, 1, n]`, reads at position `p · b + q` the value of
    the pair `(p, q)`. -/
theorem shapeCast_ab_11n_apply {a b n : ℕ} (z : (⟨2, ![a, b]⟩ : Shape).Idx → α)
    (h : (⟨2, ![a, b]⟩ : Shape).ShapeCasts ⟨3, ![1, 1, n]⟩) (u v : Fin 1) (p : Fin a) (q : Fin b) (j : Fin n)
    (hj : j.val = p.val * b + q.val) :
    shapeCast ⟨3, ![1, 1, n]⟩ z h (ix3 u v j) = z (ix2 p q) :=
  shapeCast_apply z h _ _ (by
    have hu : u.val = 0 := by omega
    have hv : v.val = 0 := by omega
    rw [Shape.rowMajor_val_two, Shape.rowMajor_val_three]
    show p.val * b + q.val = (u.val * 1 + v.val) * n + j.val
    rw [hu, hv, hj]
    simp)

end Idealize.ShloMosaic.RowPairs
-- ==== Proof.RowsLayout.lean ====
/-
  The two layouts of the grid function agree.

  The kernel's host code flattens the coefficient rows [32, 16, 165] to a matrix [512, 165] (row b·16 + f is the row of
  the pair (b, f)), writes the weights [87808] as one line [1, 87808], and shapes the result matrix back to [32, 16, 165].
  A shape cast keeps every element's row-major position, and a change of float format is the identity on the extended
  reals, so the matrix form of the grid function on the flattened rows, shaped back, is the array form on the rows.
-/
import proofs.«162092_j17678085390535_2_alg».proof.Proof.GridQuadrature
import proofs.«162092_j17678085390535_2_alg».proof.Proof.LibRowPairs
import Idealize.ShloMosaic.Lib.Pipeline.Value
import Idealize.ShloMosaic.Lib.ValueIdx

noncomputable section

namespace Cert.GridQuadrature

open Idealize.ShloMosaic Idealize.ShloMosaic.ValueIdx
open scoped BigOperators

/-- The weights' line [1, 87808] reads at position g the weight g of the vector. -/
theorem weights_line_apply (q : FVec Ideal ⟨1, ![87808]⟩ .f32) (h : (⟨1, ![87808]⟩ : Shape).ShapeCasts ⟨2, ![1, 87808]⟩)
    (g : Fin 87808) : shapeCast ⟨2, ![1, 87808]⟩ q h (ix2 0 g) = q (ix1 g) :=
  shapeCast_apply q h (ix2 0 g) (ix1 g) (by
    rw [Shape.rowMajor_val_one, Shape.rowMajor_val_two]
    show g.val = 0 * 87808 + g.val
    omega)

/-- The matrix form on the flattened rows, shaped back to [32, 16, 165], is the array form. -/
theorem act_of_rows (x : FVec Ideal ⟨3, ![32, 16, 165]⟩ .f32) (D : FVec Ideal ⟨2, ![87808, 165]⟩ .f32)
    (q : FVec Ideal ⟨1, ![87808]⟩ .f32) (h1 : (⟨3, ![32, 16, 165]⟩ : Shape).ShapeCasts ⟨2, ![512, 165]⟩)
    (hb : FTy.bits .bf16 < FTy.bits .f32) (h2 : (⟨1, ![87808]⟩ : Shape).ShapeCasts ⟨2, ![1, 87808]⟩)
    (h3 : (⟨2, ![512, 165]⟩ : Shape).ShapeCasts ⟨3, ![32, 16, 165]⟩) :
    shapeCast ⟨3, ![32, 16, 165]⟩
        (actRows (truncf .bf16 (shapeCast ⟨2, ![512, 165]⟩ x h1) hb : FVec Ideal ⟨2, ![512, 165]⟩ .bf16) D (shapeCast ⟨2, ![1, 87808]⟩ q h2)) h3
      = act x D q := by
  funext i
  obtain ⟨b, f, e, rfl⟩ : ∃ (b : Fin 32) (f : Fin 16) (e : Fin 165), i = ix3 b f e := ⟨i 0, i 1, i 2, eq_ix3 i⟩
  have hr : b.val * 16 + f.val < 512 := by have := b.isLt; have := f.isLt; omega
  rw [Idealize.ShloMosaic.RowPairs.shapeCast_nc_abc_apply _ h3 b f e ⟨_, hr⟩ rfl]
  show ∑ g : Fin 87808, sample (fun d => shapeCast ⟨2, ![512, 165]⟩ x h1 (ix2 ⟨_, hr⟩ d)) (fun d => D (ix2 g d))
      (shapeCast ⟨2, ![1, 87808]⟩ q h2 (ix2 0 g)) e
    = ∑ g : Fin 87808, sample (fun d => x (ix3 b f d)) (fun d => D (ix2 g d)) (q (ix1 g)) e
  exact Finset.sum_congr rfl fun g _ => sample_congr
    (fun d => Idealize.ShloMosaic.RowPairs.shapeCast_abc_nc_apply x h1 b f d ⟨_, hr⟩ rfl) (fun _ => rfl)
    (weights_line_apply q h2 g) e

end Cert.GridQuadrature

end
-- ==== Proof.KernelIsAct.lean ====
/-
  The kernel computes the grid function.

  Each pass writes its 256 result rows back once, after its last point, and what it writes is what the accumulator
  holds there: for every row the sum of all fourteen tiles, that is the sum over the whole grid. The two passes' blocks
  are the two halves of the result matrix [512, 165], so the matrix ends holding the matrix form of the grid function of
  the arrays as the region finds them. Those are the flattened coefficient rows, the basis as launched, and the weights
  as one line; the last host line shapes the result matrix back to [32, 16, 165]. So the kernel's result is the grid
  function of its three arguments.
-/
import proofs.«162092_j17678085390535_2_alg».proof.Proof.PassAccumulation
import proofs.«162092_j17678085390535_2_alg».proof.Proof.RowsLayout
import Idealize.ShloMosaic.Lib.Pipeline.Value
import Idealize.ShloMosaic.Lib.StableHlo.Run

noncomputable section

namespace Cert.KernelIdeal.TileValue

open Cert.KernelIdeal Cert.KernelIdeal.Gen Idealize.ShloMosaic Idealize.ShloMosaic.TcCoe Idealize.SL.Sem
open Idealize.ShloMosaic.ValueIdx Cert.GridQuadrature
open Idealize.ShloMosaic.Pipeline (Dat)
open scoped BigOperators

variable (m : (ℓ : Loc nD τ sig) → Buf (Elt Ideal) ℓ) (ρ : Dev nD → PrngReg)

/-- What a pass writes back after its last point is its block of the matrix form of the grid function. -/
theorem written_back (c : Dev nD) (t : Fin cfg0.N) (hf : (cfg0.win 3).flush t = true) :
    (dats m 0 c).flushed 3 t
      = ((cfg0.win 3).blk t).view.read (Elt Ideal) (actRows (V m c main_v1) (V m c main_arg1) (V m c main_v2)) := by
  have h13 : t.val % 14 = 13 := (flush0_3 t).mp hf
  have hN : t.val < 28 := lt_of_lt_of_eq t.isLt (show cfg0.N = 28 from N_0)
  show (cfg0.win 3).cut (grid0.coords t) ((dats m 0 c).after 3 t) = _
  rw [after0_3, out_at_last m c t.val t.isLt h13]
  refine funext fun (j : S256x165.Idx) => ?_
  obtain ⟨p, e, rfl⟩ : ∃ (p : Fin 256) (e : Fin 165), j = ix2 p e := ⟨j 0, j 1, eq_ix2 j⟩
  have hr : 256 * (t.val / 14) + p.val < 512 := by have := p.isLt; omega
  have h14 : t.val % 14 + 1 = 14 := by omega
  have hL := acc_after m c t.val t.isLt p e ⟨256 * (t.val / 14) + p.val, hr⟩ rfl
  rw [h14] at hL
  have hT := tiles_sum (fun d => V m c main_v1 (ix2 (⟨256 * (t.val / 14) + p.val, hr⟩ : Fin 512) d)) (V m c main_arg1)
    (fun g => V m c main_v2 (ix2 0 g)) e
  have hR := actRows_apply (V m c main_v1) (V m c main_arg1) (V m c main_v2) (⟨256 * (t.val / 14) + p.val, hr⟩ : Fin 512) e
  have key : (outsAt0 m c t.val t.isLt).2 (ix2 p e)
      = actRows (V m c main_v1) (V m c main_arg1) (V m c main_v2) (ix2 (⟨256 * (t.val / 14) + p.val, hr⟩ : Fin 512) e) :=
    (hL.trans hT).trans hR.symm
  generalize actRows (V m c main_v1) (V m c main_arg1) (V m c main_v2) = G at key ⊢
  generalize (outsAt0 m c t.val t.isLt).2 = X at key ⊢
  rw [View.read_apply, result_block_emb t p e ⟨_, hr⟩ rfl]
  exact key

/-- An index of the result matrix is in point t's block iff each coordinate is in the block's range on its axis. -/
theorem mem_result_block (t : Fin cfg0.N) (i : S512x165.Idx) :
    i ∈ ((cfg0.win 3).blk t).view.set
      ↔ ∀ a : Fin 2, win0_3.index t a * S256x165.size a ≤ (i a).val ∧ (i a).val < win0_3.index t a * S256x165.size a + S256x165.size a := by
  show i ∈ ((View.whole main_v3).slice (win0_3.rect t)).set ↔ _
  rw [View.set_slice_whole, Rect.mem_set_unit]
  exact Iff.rfl

/-- Row r of the result matrix is written back by the last point of pass r / 256. -/
theorem result_covered (i : S512x165.Idx) :
    ∃ t : Fin cfg0.N, (cfg0.win 3).flush t = true ∧ i ∈ ((cfg0.win 3).blk t).view.set := by
  have hi0 : (i 0).val < 512 := (i 0).isLt
  have hi1 : (i 1).val < 165 := (i 1).isLt
  have hN : cfg0.N = 28 := N_0
  have ht : 14 * ((i 0).val / 256) + 13 < cfg0.N := by rw [hN]; omega
  obtain ⟨-, -, -, -, -, -, e0, e1⟩ := block_numbers ⟨14 * ((i 0).val / 256) + 13, ht⟩
  have e0' : win0_3.index ⟨14 * ((i 0).val / 256) + 13, ht⟩ (0 : Fin 2) = (14 * ((i 0).val / 256) + 13) / 14 := e0
  refine ⟨⟨14 * ((i 0).val / 256) + 13, ht⟩, (flush0_3 _).mpr (by show (14 * ((i 0).val / 256) + 13) % 14 = 13; omega), ?_⟩
  rw [mem_result_block]
  intro a
  match a with
  | ⟨0, _⟩ =>
    show win0_3.index ⟨14 * ((i 0).val / 256) + 13, ht⟩ (0 : Fin 2) * 256 ≤ (i 0).val
      ∧ (i 0).val < win0_3.index ⟨14 * ((i 0).val / 256) + 13, ht⟩ (0 : Fin 2) * 256 + 256
    omega
  | ⟨1, _⟩ =>
    show win0_3.index ⟨14 * ((i 0).val / 256) + 13, ht⟩ (1 : Fin 2) * 165 ≤ (i 1).val
      ∧ (i 1).val < win0_3.index ⟨14 * ((i 0).val / 256) + 13, ht⟩ (1 : Fin 2) * 165 + 165
    omega

/-- The result matrix after the run: the matrix form of the grid function of the arrays as the region finds them. -/
theorem result_matrix (c : Dev nD) :
    (dats m 0 c).arrAt 3 cfg0.N = actRows (V m c main_v1) (V m c main_arg1) (V m c main_v2) :=
  (dats m 0 c).arrAt_eq_of_cover 3 _ (written_back m c) result_covered

/-- The region finds the coefficient rows flattened to a matrix, -/
theorem rows_staged (c : Dev nD) :
    V m c main_v1
      = truncf (F := Ideal) .bf16 (shapeCast S512x165 (m ((c : Thread nD τ).loc main_arg0)) shapeCasts_S32x16x165_S512x165) bitsLt_bf16_f32 := by
  show StableHlo.after hostOps0 (fun b => m (c, b)) (Proc.devRef .tc main_v1) = _
  after_results
  rfl

/-- and the weights written as one line. -/
theorem weights_staged (c : Dev nD) :
    V m c main_v2 = shapeCast (α := EReal) S1x87808 (m ((c : Thread nD τ).loc main_arg2)) shapeCasts_S87808_S1x87808 := by
  show StableHlo.after hostOps0 (fun b => m (c, b)) (Proc.devRef .tc main_v2) = _
  after_results
  rfl

/-- The last host line shapes the result matrix back to [32, 16, 165]. -/
theorem result_shaped (c : Dev nD) :
    Pipeline.afterTail₀ cfgs (dats m) 0 (V0 m) [hostOps1] c main_v4
      = shapeCast S32x16x165 ((dats m 0 c).arrAt 3 cfg0.N) shapeCasts_S512x165_S32x16x165 := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.tc.devRef main_v3)
      = (dats m 0 c).arrAt 3 cfg0.N from Pipeline.withArrays_arr spec0 launch0.win.arr_inj c _ _ 3]
  rfl

/-- The kernel's result is the grid function of its three arguments. -/
theorem kernel_result (c : Dev nD) :
    Pipeline.afterTail₀ cfgs (dats m) 0 (V0 m) [hostOps1] c main_v4
      = act (m ((c.tc : Thread nD τ).loc main_arg0)) (m ((c.tc : Thread nD τ).loc main_arg1)) (m ((c.tc : Thread nD τ).loc main_arg2)) := by
  rw [result_shaped, result_matrix, rows_staged, weights_staged, V_main_arg1]
  exact act_of_rows _ _ _ _ _ _ _

/-- Every weakly fair execution of the kernel's program terminates with its result at the grid function of the
    arguments, and the arguments unchanged. -/
theorem run : θ_run defs (onTc (τ := τ) (main (F := Ideal))) ⟨m, fun _ => 0, ρ⟩ fun r => ∀ c : Dev nD,
      r.2.mem ((c.tc : Thread nD τ).loc main_v4) = act (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (kernel_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.TileValue

end
-- ==== Proof.ReferenceIsAct.lean ====
/-
  The reference computes the grid function.

  The reference evaluates every coefficient row at every sample (a contraction of the rows [32, 16, 165] with the basis
  [87808, 165] over the coefficient axis), cuts each sample off at zero, weights sample `g` by `q g` (the weights spread
  over all rows), and contracts the weighted samples with the basis over the sample axis. Read at the output index
  (b, f, e) this is the sum over `g` of the contribution of sample `g` to coefficient `e` of row (b, f).
-/
import proofs.«162092_j17678085390535_2_alg».proof.Proof.Gen.ReferenceIdeal.Read
import proofs.«162092_j17678085390535_2_alg».proof.Proof.GridQuadrature

noncomputable section

namespace Cert.ReferenceIdeal.RefValue

open Cert.ReferenceIdeal Cert.ReferenceIdeal.Read Idealize.ShloMosaic Idealize.ShloMosaic.ValueIdx Cert.GridQuadrature
open scoped BigOperators

/-- The reference's result, as a function of its three arguments, is the grid function. -/
theorem reference_eq (x : (⟨S32x16x165, .f32⟩ : BufTy).Contents (Elt Ideal)) (D : (⟨S87808x165, .f32⟩ : BufTy).Contents (Elt Ideal))
    (q : (⟨S87808, .f32⟩ : BufTy).Contents (Elt Ideal)) :
    val_main_v5 (F := Ideal) x D q = act x D q := by
  funext i
  rw [val_main_v5_apply]
  unfold act
  refine Finset.sum_congr rfl fun g _ => ?_
  rw [val_main_v4_apply, val_main_v1_apply, val_main_v0_apply, val_main_call0_v0_apply, val_main_call0_cst_apply,
    val_main_v3_apply, val_main_v2_apply]
  have e1 : ∀ k : Fin 165, lidx_main_v0 (lidx_main_v5 i g) k = ix3 (i 0) (i 1) k := fun k => funext fun a => Fin.ext (by
    match a with
    | ⟨0, _⟩ => rfl
    | ⟨1, _⟩ => rfl
    | ⟨2, _⟩ => rfl)
  have e2 : ∀ k : Fin 165, ridx_main_v0 (lidx_main_v5 i g) k = ix2 g k := fun k => funext fun a => Fin.ext (by
    match a with
    | ⟨0, _⟩ => rfl
    | ⟨1, _⟩ => rfl)
  have e3 : idx_main_v2 (idx_main_v3 (lidx_main_v5 i g)) = ix1 g := funext fun a => Fin.ext (by
    match a with
    | ⟨0, _⟩ => rfl)
  have e4 : ridx_main_v5 i g = ix2 g (i 2) := funext fun a => Fin.ext (by
    match a with
    | ⟨0, _⟩ => rfl
    | ⟨1, _⟩ => rfl)
  simp only [e1, e2, e3, e4, Ideal.mulf_def, Ideal.maximumf_def, Ideal.ofBits_def]
  rfl

end Cert.ReferenceIdeal.RefValue

end
-- ==== Proof.lean ====
/-
  The five claims about the kernel, its idealization and the reference.

  Both programs compute one function of a batch of coefficient rows x [32, 16, 165], a basis D [87808, 165] sampled on a
  grid of 87808 points, and quadrature weights q [87808]: every row is evaluated at every grid sample (its inner product
  with the sample's basis row), the negative part of each sample is cut off, the sample is weighted, and the weighted
  samples are projected back onto the basis,

      out (b, f, e) = ∑ g, max (∑ d, x (b, f, d) · D (g, d)) 0 · q g · D (g, e).

  The reference computes this with two contractions over whole arrays. The kernel flattens the rows to a matrix
  [512, 165], works on two passes of 256 rows, and in each pass walks the grid in fourteen tiles of 6272 samples, adding
  each tile's part of the sum to an accumulator that starts at zero and is written out after the last tile. On the
  extended reals the changes of float format are the identity and a sum taken tile by tile is the sum over the whole
  grid, by commutativity and associativity of the addition alone: no entry needs to be finite, and the precondition is
  never opened. The idealization rewrote nothing, so its preservation claim is trivial; the three frame claims are the
  generated frames of the two kernel programs and the reference's run with the result dropped.
-/
import proofs.«162092_j17678085390535_2_alg».proof.Defs
import proofs.«162092_j17678085390535_2_alg».proof.Proof.Gen.Kernel
import proofs.«162092_j17678085390535_2_alg».proof.Proof.Gen.Kernel.Skeleton
import proofs.«162092_j17678085390535_2_alg».proof.Proof.Gen.Kernel.Launch
import proofs.«162092_j17678085390535_2_alg».proof.Proof.Gen.Kernel.Points
import proofs.«162092_j17678085390535_2_alg».proof.Proof.Gen.Kernel.Frame
import proofs.«162092_j17678085390535_2_alg».proof.Proof.Gen.KernelIdeal
import proofs.«162092_j17678085390535_2_alg».proof.Proof.Gen.KernelIdeal.Skeleton
import proofs.«162092_j17678085390535_2_alg».proof.Proof.Gen.KernelIdeal.Launch
import proofs.«162092_j17678085390535_2_alg».proof.Proof.Gen.KernelIdeal.Points
import proofs.«162092_j17678085390535_2_alg».proof.Proof.Gen.KernelIdeal.Frame
import proofs.«162092_j17678085390535_2_alg».proof.Proof.Gen.ReferenceIdeal
import proofs.«162092_j17678085390535_2_alg».proof.Proof.Gen.Pre_finite_inputs
import proofs.«162092_j17678085390535_2_alg».proof.Proof.Gen.ReferenceIdeal.Run
import proofs.«162092_j17678085390535_2_alg».proof.Proof.Gen.ReferenceIdeal.Read
import proofs.«162092_j17678085390535_2_alg».proof.Proof.KernelIsAct
import proofs.«162092_j17678085390535_2_alg».proof.Proof.ReferenceIsAct
import Idealize.ShloMosaic.Adequacy
import Idealize.ShloMosaic.Init

noncomputable section

namespace Cert.Proof

open Idealize.ShloMosaic Idealize.SL.Sem

/-- The word-level kernel runs and leaves its arguments unchanged: its generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, both programs end with the grid function of those arguments. -/
theorem algebraic : Cert.algebraic_KernelIdeal_ReferenceIdeal := by
  intro m ρ m' ρ' _ hagree
  refine ⟨fun c => Cert.GridQuadrature.act (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.reference_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
